-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x2048x18 : Shape := ⟨3, ![64, 2048, 18]⟩
abbrev S64x2048x4 : Shape := ⟨3, ![64, 2048, 4]⟩
abbrev S64x2048x17x3 : Shape := ⟨4, ![64, 2048, 17, 3]⟩
abbrev S64x2048 : Shape := ⟨2, ![64, 2048]⟩
abbrev S1024x585 : Shape := ⟨2, ![1024, 585]⟩
abbrev S1024 : Shape := ⟨1, ![1024]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S64x2048x18 : S_.BroadcastsInDim S64x2048x18 (![] : Fin 0 → Fin S64x2048x18.rank)
  reducesTo_S64x2048x18_S_d0_1_2 : S64x2048x18.ReducesTo [0, 1, 2] S_
  bcast_S_S64x2048x4 : S_.BroadcastsInDim S64x2048x4 (![] : Fin 0 → Fin S64x2048x4.rank)
  reducesTo_S64x2048x4_S_d0_1_2 : S64x2048x4.ReducesTo [0, 1, 2] S_
  bcast_S_S64x2048x17x3 : S_.BroadcastsInDim S64x2048x17x3 (![] : Fin 0 → Fin S64x2048x17x3.rank)
  reducesTo_S64x2048x17x3_S_d0_1_2_3 : S64x2048x17x3.ReducesTo [0, 1, 2, 3] S_
  bcast_S_S1024x585 : S_.BroadcastsInDim S1024x585 (![] : Fin 0 → Fin S1024x585.rank)
  reducesTo_S1024x585_S_d0_1 : S1024x585.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024x585 .f32) (main_arg6 : FVec F S1024 .f32) (main_v13 : IVec S_ 1) (main_v16 : IVec S64x2048x17x3 1) : IVec S_ 1 :=
  let main_c_5 : IVec S_ 1 := constantI S_ 1 1#1
  let main_v17 : IVec S_ 1 := (fun x v => Host.reduce IntOp.andi x v reducesTo_S64x2048x17x3_S_d0_1_2_3 h_S_) main_v16 main_c_5
  let main_v18 : IVec S_ 1 := andi main_v13 main_v17
  let main_v19 : FVec F S1024x585 .f32 := Host.absf main_arg5
  let main_cst_6 : FVec F S_ .f32 := constant S_ .f32 0x7F800000#32
  let main_v20 : FVec F S1024x585 .f32 := broadcastInDim S1024x585 ![] bcast_S_S1024x585 main_cst_6
  let main_v21 : IVec S1024x585 1 := cmpf .olt main_v19 main_v20
  let main_c_7 : IVec S_ 1 := constantI S_ 1 1#1
  let main_v22 : IVec S_ 1 := (fun x v => Host.reduce IntOp.andi x v reducesTo_S1024x585_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S64x2048x512 .f32) (main_arg1 : FVec F S64x2048x18 .f32) (main_arg2 : FVec F S64x2048x4 .f32) (main_arg3 : FVec F S64x2048x17x3 .f32) (main_arg4 : IVec S64x2048 1) (main_arg5 : FVec F S1024x585 .f32) (main_arg6 : FVec F S1024 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S64x2048x18 .f32 := Host.absf main_arg1
  let main_cst_0 : FVec F S_ .f32 := constant S_ .f32 0x7F800000#32
  let main_v5 : FVec F S64x2048x18 .f32 := broadcastInDim S64x2048x18 ![] bcast_S_S64x2048x18 main_cst_0
  let main_v6 : IVec S64x2048x18 1 := cmpf .olt main_v4 main_v5
  let main_c_1 : IVec S_ 1 := constantI S_ 1 1#1
  let main_v7 : IVec S_ 1 := (fun x v => Host.reduce IntOp.andi x v reducesTo_S64x2048x18_S_d0_1_2 h_S_) main_v6 main_c_1
  let main_v8 : IVec S_ 1 := andi main_v3 main_v7
  let main_v9 : FVec F S64x2048x4 .f32 := Host.absf main_arg2
  let main_cst_2 : FVec F S_ .f32 := constant S_ .f32 0x7F800000#32
  let main_v10 : FVec F S64x2048x4 .f32 := broadcastInDim S64x2048x4 ![] bcast_S_S64x2048x4 main_cst_2
  let main_v11 : IVec S64x2048x4 1 := cmpf .olt main_v9 main_v10
  let main_c_3 : IVec S_ 1 := constantI S_ 1 1#1
  let main_v12 : IVec S_ 1 := (fun x v => Host.reduce IntOp.andi x v reducesTo_S64x2048x4_S_d0_1_2 h_S_) main_v11 main_c_3
  let main_v13 : IVec S_ 1 := andi main_v8 main_v12
  let main_v14 : FVec F S64x2048x17x3 .f32 := Host.absf main_arg3
  let main_cst_4 : FVec F S_ .f32 := constant S_ .f32 0x7F800000#32
  let main_v15 : FVec F S64x2048x17x3 .f32 := broadcastInDim S64x2048x17x3 ![] bcast_S_S64x2048x17x3 main_cst_4
  let main_v16 : IVec S64x2048x17x3 1 := cmpf .olt main_v14 main_v15
  fn_part1 (F := F) main_arg5 main_arg6 main_v13 main_v16
-- ==== Kernel.lean ====
abbrev S64x2048x512 : Shape := ⟨3, ![64, 2048, 512]⟩
abbrev S64x2048x18 : Shape := ⟨3, ![64, 2048, 18]⟩
abbrev S64x2048x4 : Shape := ⟨3, ![64, 2048, 4]⟩
abbrev S64x2048x17x3 : Shape := ⟨4, ![64, 2048, 17, 3]⟩
abbrev S64x2048 : Shape := ⟨2, ![64, 2048]⟩
abbrev S1024x585 : Shape := ⟨2, ![1024, 585]⟩
abbrev S1024 : Shape := ⟨1, ![1024]⟩
abbrev S64x2048x51 : Shape := ⟨3, ![64, 2048, 51]⟩
abbrev S64x2048x73 : Shape := ⟨3, ![64, 2048, 73]⟩
abbrev S_ : Shape := ⟨0, ![]⟩
abbrev S64x2048x128 : Shape := ⟨3, ![64, 2048, 128]⟩
abbrev S64x2048x1 : Shape := ⟨3, ![64, 2048, 1]⟩
abbrev S1024x512 : Shape := ⟨2, ![1024, 512]⟩
abbrev S1024x73 : Shape := ⟨2, ![1024, 73]⟩
abbrev S1024x128 : Shape := ⟨2, ![1024, 128]⟩
abbrev S512x1024 : Shape := ⟨2, ![512, 1024]⟩
abbrev S128x1024 : Shape := ⟨2, ![128, 1024]⟩
abbrev S64x2048x1024 : Shape := ⟨3, ![64, 2048, 1024]⟩
abbrev S1x2048x512 : Shape := ⟨3, ![1, 2048, 512]⟩
abbrev S1x2048x128 : Shape := ⟨3, ![1, 2048, 128]⟩
abbrev S1x2048x1 : Shape := ⟨3, ![1, 2048, 1]⟩
abbrev S1x2048x1024 : Shape := ⟨3, ![1, 2048, 1024]⟩
abbrev S2048x512 : Shape := ⟨2, ![2048, 512]⟩
abbrev S2048x128 : Shape := ⟨2, ![2048, 128]⟩
abbrev S2048x1024 : Shape := ⟨2, ![2048, 1024]⟩
abbrev S1x1024 : Shape := ⟨2, ![1, 1024]⟩
abbrev S2048x1 : Shape := ⟨2, ![2048, 1]⟩

abbrev nBuf : Space → Nat
  | .hbm => 25
  | .vmem => 11
  | .smem => 0
  | _ => 0

abbrev bufTy : (tb : Table) → Fin (tcTables nBuf tb) → BufTy
  | .hbm, ⟨0, _⟩ => ⟨S64x2048x512, .f32⟩
  | .hbm, ⟨1, _⟩ => ⟨S64x2048x18, .f32⟩
  | .hbm, ⟨2, _⟩ => ⟨S64x2048x4, .f32⟩
  | .hbm, ⟨3, _⟩ => ⟨S64x2048x17x3, .f32⟩
  | .hbm, ⟨4, _⟩ => ⟨S64x2048, .i1⟩
  | .hbm, ⟨5, _⟩ => ⟨S1024x585, .f32⟩
  | .hbm, ⟨6, _⟩ => ⟨S1024, .f32⟩
  | .hbm, ⟨7, _⟩ => ⟨S64x2048x51, .f32⟩
  | .hbm, ⟨8, _⟩ => ⟨S64x2048x73, .f32⟩
  | .hbm, ⟨9, _⟩ => ⟨S64x2048x73, .bf16⟩
  | .hbm, ⟨10, _⟩ => ⟨S_, .i32⟩
  | .hbm, ⟨11, _⟩ => ⟨S_, .bf16⟩
  | .hbm, ⟨12, _⟩ => ⟨S64x2048x128, .bf16⟩
  | .hbm, ⟨13, _⟩ => ⟨S64x2048, .f32⟩
  | .hbm, ⟨14, _⟩ => ⟨S64x2048x1, .f32⟩
  | .hbm, ⟨15, _⟩ => ⟨S1024x512, .f32⟩
  | .hbm, ⟨16, _⟩ => ⟨S1024x73, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S512x1024, .f32⟩
  | .hbm, ⟨21, _⟩ => ⟨S512x1024, .bf16⟩
  | .hbm, ⟨22, _⟩ => ⟨S128x1024, .f32⟩
  | .hbm, ⟨23, _⟩ => ⟨S128x1024, .bf16⟩
  | .hbm, ⟨24, _⟩ => ⟨S64x2048x1024, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x1, .f32⟩
  | .local _ .vmem, ⟨5, _⟩ => ⟨S1x2048x1, .f32⟩
  | .local _ .vmem, ⟨6, _⟩ => ⟨S512x1024, .bf16⟩
  | .local _ .vmem, ⟨7, _⟩ => ⟨S128x1024, .bf16⟩
  | .local _ .vmem, ⟨8, _⟩ => ⟨S1024, .f32⟩
  | .local _ .vmem, ⟨9, _⟩ => ⟨S1x2048x1024, .f32⟩
  | .local _ .vmem, ⟨10, _⟩ => ⟨S1x2048x1024, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x2048x17x3_S64x2048x51 : S64x2048x17x3.ShapeCasts S64x2048x51
  concatenates_S64x2048x18_S64x2048x4_S64x2048x51_S64x2048x73_d2 : Shape.Concatenates [S64x2048x18, S64x2048x4, S64x2048x51] S64x2048x73 2
  bitsLt_bf16_f32 : FTy.bits .bf16 < FTy.bits .f32
  pads_S64x2048x73_S64x2048x128_000_000_0550 : S64x2048x73.Pads (![0, 0, 0] : Fin 3 → Nat) ![0, 0, 55] ![0, 0, 0] S64x2048x128
  h_S_ : 0 < S_.numel
  bcast_S64x2048_S64x2048x1_0_1 : S64x2048.BroadcastsInDim S64x2048x1 (![0, 1] : Fin 2 → Fin S64x2048x1.rank)
  slices_S1024x585_S1024x512_0_0 : S1024x585.Slices ![0, 0] S1024x512
  slices_S1024x585_S1024x73_0_512 : S1024x585.Slices ![0, 512] S1024x73
  pads_S1024x73_S1024x128_000_0550 : S1024x73.Pads (![0, 0] : Fin 2 → Nat) ![0, 55] ![0, 0] S1024x128
  transposes_S1024x512_S512x1024_1_0 : S1024x512.Transposes [1, 0] S512x1024
  transposes_S1024x128_S128x1024_1_0 : S1024x128.Transposes [1, 0] S128x1024
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  broadcasts_S2048x1_S2048x1024 : S2048x1.Broadcasts S2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  dot_S2048x512_S512x1024_S2048x1024_1_0_0_1_n_n_wf : DotDims.WF S2048x512 S512x1024 S2048x1024 [1] [0] [0] [1] [] []
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S64x2048x512.size a
  hwx0_0 : ∀ i : grid0.Coords, EltTy.bits .f32 = 32 ∨ (Rect.block (s := S64x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S64x2048x128.size a
  hwx0_1 : ∀ i : grid0.Coords, EltTy.bits .bf16 = 32 ∨ (Rect.block (s := S64x2048x128) S1x2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S64x2048x1.size a
  hwx0_2 : ∀ i : grid0.Coords, EltTy.bits .f32 = 32 ∨ (Rect.block (s := S64x2048x1) S1x2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x1024.size a
  hwx0_4 : ∀ i : grid0.Coords, EltTy.bits .bf16 = 32 ∨ (Rect.block (s := S128x1024) S128x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x1024.size a ≤ S64x2048x1024.size a
  hwx0_6 : ∀ i : grid0.Coords, EltTy.bits .f32 = 32 ∨ (Rect.block (s := S64x2048x1024) S1x2048x1024.size (cc0_transform_6 i) (hinb0_6 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x2048x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S64x2048x18 : Shape := ⟨3, ![64, 2048, 18]⟩
abbrev S64x2048x4 : Shape := ⟨3, ![64, 2048, 4]⟩
abbrev S64x2048x17x3 : Shape := ⟨4, ![64, 2048, 17, 3]⟩
abbrev S64x2048 : Shape := ⟨2, ![64, 2048]⟩
abbrev S1024x585 : Shape := ⟨2, ![1024, 585]⟩
abbrev S1024 : Shape := ⟨1, ![1024]⟩
abbrev S64x2048x51 : Shape := ⟨3, ![64, 2048, 51]⟩
abbrev S64x2048x585 : Shape := ⟨3, ![64, 2048, 585]⟩
abbrev S64x2048x1024 : Shape := ⟨3, ![64, 2048, 1024]⟩
abbrev S1x1x1024 : Shape := ⟨3, ![1, 1, 1024]⟩
abbrev S64x2048x1 : Shape := ⟨3, ![64, 2048, 1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x2048x18, .f32⟩
  | .hbm, ⟨2, _⟩ => ⟨S64x2048x4, .f32⟩
  | .hbm, ⟨3, _⟩ => ⟨S64x2048x17x3, .f32⟩
  | .hbm, ⟨4, _⟩ => ⟨S64x2048, .i1⟩
  | .hbm, ⟨5, _⟩ => ⟨S1024x585, .f32⟩
  | .hbm, ⟨6, _⟩ => ⟨S1024, .f32⟩
  | .hbm, ⟨7, _⟩ => ⟨S64x2048x51, .f32⟩
  | .hbm, ⟨8, _⟩ => ⟨S64x2048x585, .f32⟩
  | .hbm, ⟨9, _⟩ => ⟨S64x2048x1024, .f32⟩
  | .hbm, ⟨10, _⟩ => ⟨S1x1x1024, .f32⟩
  | .hbm, ⟨11, _⟩ => ⟨S64x2048x1024, .f32⟩
  | .hbm, ⟨12, _⟩ => ⟨S64x2048x1024, .f32⟩
  | .hbm, ⟨13, _⟩ => ⟨S64x2048x1, .i1⟩
  | .hbm, ⟨14, _⟩ => ⟨S_, .f32⟩
  | .hbm, ⟨15, _⟩ => ⟨S64x2048x1024, .i1⟩
  | .hbm, ⟨16, _⟩ => ⟨S64x2048x1024, .f32⟩
  | .hbm, ⟨17, _⟩ => ⟨S64x2048x1024, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  shapeCasts_S64x2048x17x3_S64x2048x51 : S64x2048x17x3.ShapeCasts S64x2048x51
  concatenates_S64x2048x512_S64x2048x18_S64x2048x4_S64x2048x51_S64x2048x585_d2 : Shape.Concatenates [S64x2048x512, S64x2048x18, S64x2048x4, S64x2048x51] S64x2048x585 2
  bcast_S1024_S1x1x1024_2 : S1024.BroadcastsInDim S1x1x1024 (![2] : Fin 1 → Fin S1x1x1024.rank)
  bcast_S1x1x1024_S64x2048x1024_0_1_2 : S1x1x1024.BroadcastsInDim S64x2048x1024 (![0, 1, 2] : Fin 3 → Fin S64x2048x1024.rank)
  bcast_S64x2048_S64x2048x1_0_1 : S64x2048.BroadcastsInDim S64x2048x1 (![0, 1] : Fin 2 → Fin S64x2048x1.rank)
  bcast_S64x2048x1_S64x2048x1024_0_1_2 : S64x2048x1.BroadcastsInDim S64x2048x1024 (![0, 1, 2] : Fin 3 → Fin S64x2048x1024.rank)
  bcast_S_S64x2048x1024 : S_.BroadcastsInDim S64x2048x1024 (![] : Fin 0 → Fin S64x2048x1024.rank)
  dot_S64x2048x585_S1024x585_S64x2048x1024_2_1_01_0_n_n_wf : DotDims.WF S64x2048x585 S1024x585 S64x2048x1024 [2] [1] [0, 1] [0] [] []

variable [Facts₀]

def dot_S64x2048x585_S1024x585_S64x2048x1024_2_1_01_0_n_n : DotDims S64x2048x585 S1024x585 S64x2048x1024 where
  lhsContracting := [2]
  rhsContracting := [1]
  lhsNonContracting := [0, 1]
  rhsNonContracting := [0]
  lhsBatch := []
  rhsBatch := []
  wf := dot_S64x2048x585_S1024x585_S64x2048x1024_2_1_01_0_n_n_wf

class Facts : Prop extends Facts₀ where

variable [Facts]
-- ==== Proof.BitsFrame.lean ====
/-
  The frame run of the projection program.

  @main first prepares, by host operations, the arrays the kernel's windows stage: the three small feature groups
  joined along the feature axis, rounded and zero-padded to 128 columns; the mask as a column of numbers; the two
  row ranges of the weight matrix (the second zero-padded to 128 rows), transposed and rounded. The one region then
  runs over 64 points, one image each. At a point the body loads the whole block of each of its six input windows,
  computes one value (the skeleton's payload `k0_pay1`) and stores it over the whole block of the output window; it
  also loads the output buffer once, a value it never uses. So after the body each input buffer holds the block it
  held, and the output buffer holds the payload of the six input blocks, whatever it held before: this is the proof
  data of the library's frame run, whose post has every array the windows stage at the library's fold over the
  points (`Dat.arrAt`) and every other buffer as the region found it. No host operation writes an argument, so the
  arguments end as launched. Everything is stated for any float instance.
-/
import proofs.«162939_j11089605558541_2_alg».proof.Proof.Gen.Kernel.Launch
import proofs.«162939_j11089605558541_2_alg».proof.Proof.Gen.Kernel.Skeleton
import proofs.«162939_j11089605558541_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is its host operations, stretch by stretch, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes the argument `r` (each writes one buffer, and it is another): the region finds it as launched. -/
theorem V_arg (c : Dev nD) (r : Ref sig .tc)
    (hr : r = main_arg0 ∨ r = main_arg1 ∨ r = main_arg2 ∨ r = main_arg3 ∨ r = main_arg4 ∨ r = main_arg5 ∨ r = main_arg6) :
    V m c r = m ((c : Thread nD τ).loc r) :=
  StableHlo.after_of_forall_not_mem (b := Proc.devRef .tc r) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    rcases hr with h | h | h | h | h | h | h <;> subst h <;>
    · repeat' apply And.intro
      all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched its block index has not moved), for any proof data over the region-entry arrays whose body leaves the block in
    place. One statement per input window: the block's index type is the window's own. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each the whole of its buffer -/

abbrev rEmb : Rect S1x2048x512 := Rect.unit (s := S1x2048x512) ![0, 0, 0] S1x2048x512.size inb_S1x2048x512_S1x2048x512_0_0_0
abbrev rSmall : Rect S1x2048x128 := Rect.unit (s := S1x2048x128) ![0, 0, 0] S1x2048x128.size inb_S1x2048x128_S1x2048x128_0_0_0
abbrev rMask : Rect S1x2048x1 := Rect.unit (s := S1x2048x1) ![0, 0, 0] S1x2048x1.size inb_S1x2048x1_S1x2048x1_0_0_0
abbrev rWemb : Rect S512x1024 := Rect.unit (s := S512x1024) ![0, 0] S512x1024.size inb_S512x1024_S512x1024_0_0
abbrev rWsmall : Rect S128x1024 := Rect.unit (s := S128x1024) ![0, 0] S128x1024.size inb_S128x1024_S128x1024_0_0
abbrev rBias : Rect S1024 := Rect.unit (s := S1024) ![0] S1024.size inb_S1024_S1024_0
abbrev rOut : Rect S1x2048x1024 := Rect.unit (s := S1x2048x1024) ![0, 0, 0] S1x2048x1024.size inb_S1x2048x1024_S1x2048x1024_0_0_0

/-- The output window's staging buffer after the body, from the six input blocks: its one store, of the payload. -/
def outBlock (x0 : Vec F S1x2048x512 .f32) (x1 : Vec F S1x2048x128 .bf16) (x2 : Vec F S1x2048x1 .f32) (x3 : Vec F S512x1024 .bf16)
    (x4 : Vec F S128x1024 .bf16) (x5 : Vec F S1024 .f32) : Vec F S1x2048x1024 .f32 :=
  View.canon [⟨rOut, k0_pay1 (View.ld x0 rEmb) (View.ld x1 rSmall) (View.ld x3 rWemb) (View.ld x4 rWsmall) (View.ld x5 rBias) (View.ld x2 rMask)⟩]

/-- The one store covers the buffer. -/
theorem cover_out (p0 : Vec F S1x2048x1024 .f32) (y : S1x2048x1024.Idx) :
    ∃ pc ∈ ([⟨rOut, p0⟩] : List (View.Piece (Elt F) S1x2048x1024 .f32)), y ∈ pc.1.set :=
  View.cover_of_tiled [⟨rOut, p0⟩] S1x2048x1024.size (by rfl) y

/-! ## The body's triple -/

set_option maxHeartbeats 1000000 in
/-- The body on whole staging memrefs, the inputs' at contents `x0 … x5` and the output's at anything, runs to the
    continuation holding the inputs' as they were and the output's at `outBlock` of them. -/
theorem sound_kernel (c : Dev nD) (E : Set ℕ) (i : grid0.Coords)
    (arg1 : Memref sig .tc .vmem S1x2048x512 .f32) (harg1 : arg1.IsWhole) (arg2 : Memref sig .tc .vmem S1x2048x128 .bf16) (harg2 : arg2.IsWhole)
    (arg3 : Memref sig .tc .vmem S1x2048x1 .f32) (harg3 : arg3.IsWhole) (arg4 : Memref sig .tc .vmem S512x1024 .bf16) (harg4 : arg4.IsWhole)
    (arg5 : Memref sig .tc .vmem S128x1024 .bf16) (harg5 : arg5.IsWhole) (arg6 : Memref sig .tc .vmem S1024 .f32) (harg6 : arg6.IsWhole)
    (arg7 : Memref sig .tc .vmem S1x2048x1024 .f32) (harg7 : arg7.IsWhole)
    (x0 : Vec F S1x2048x512 .f32) (x1 : Vec F S1x2048x128 .bf16) (x2 : Vec F S1x2048x1 .f32) (x3 : Vec F S512x1024 .bf16)
    (x4 : Vec F S128x1024 .bf16) (x5 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlock x0 x1 x2 x3 x4 x5)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The pipeline's proof data -/

/-- The proof data of the pipeline on core `c`: the arrays as the region finds them; after the body at point `t` each
    input's buffer at its block and the output's at `outBlock` of the six input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) :
    (dats m 0 c).after 6 t = outBlock (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at the library's fold of the proof data over the points and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- In a final state of the frame run the arguments are as launched: the two the windows stage (window 0's array and
    window 5's) are inputs, whose arrays the fold leaves alone; the other five are no window's array. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_arg m c main_arg0 (.inl rfl)))),
    ((h c).2 main_arg1 (Pipeline.mem_restRefs_of main_arg1 (by decide) (by decide))).trans (V_arg m c main_arg1 (.inr (.inl rfl))),
    ((h c).2 main_arg2 (Pipeline.mem_restRefs_of main_arg2 (by decide) (by decide))).trans (V_arg m c main_arg2 (.inr (.inr (.inl rfl)))),
    ((h c).2 main_arg3 (Pipeline.mem_restRefs_of main_arg3 (by decide) (by decide))).trans (V_arg m c main_arg3 (.inr (.inr (.inr (.inl rfl))))),
    ((h c).2 main_arg4 (Pipeline.mem_restRefs_of main_arg4 (by decide) (by decide))).trans (V_arg m c main_arg4 (.inr (.inr (.inr (.inr (.inl rfl)))))),
    ((h c).2 main_arg5 (Pipeline.mem_restRefs_of main_arg5 (by decide) (by decide))).trans (V_arg m c main_arg5 (.inr (.inr (.inr (.inr (.inr (.inl rfl))))))),
    ((h c).1 5).trans (((dats m 0 c).arrAt_in 5 rfl _).trans ((A_eq m c 5).trans (V_arg m c main_arg6 (.inr (.inr (.inr (.inr (.inr (.inr rfl)))))))))⟩

/-- In a final state of the frame run the result array is the fold of the output window's write-backs. -/
theorem result_at (r : PUnit × MemSt nD τ sig (Elt F)) (h : Pipeline.FramePost cfgs (dats m) 0 (V m) r) (c : Dev nD) :
    r.2.mem ((c.tc : Thread nD τ).loc main_v13) = (dats m 0 c).arrAt 6 cfg0.N := (h c).1 6

/-- The frame: every weakly fair execution terminates, nothing faulting, the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => kept m r h c) (run_main m ρ)

end Cert.Kernel.Frame

end
-- ==== Proof.IdealFrame.lean ====
/-
  The frame run of the projection program.

  @main first prepares, by host operations, the arrays the kernel's windows stage: the three small feature groups
  joined along the feature axis, rounded and zero-padded to 128 columns; the mask as a column of numbers; the two
  row ranges of the weight matrix (the second zero-padded to 128 rows), transposed and rounded. The one region then
  runs over 64 points, one image each. At a point the body loads the whole block of each of its six input windows,
  computes one value (the skeleton's payload `k0_pay1`) and stores it over the whole block of the output window; it
  also loads the output buffer once, a value it never uses. So after the body each input buffer holds the block it
  held, and the output buffer holds the payload of the six input blocks, whatever it held before: this is the proof
  data of the library's frame run, whose post has every array the windows stage at the library's fold over the
  points (`Dat.arrAt`) and every other buffer as the region found it. No host operation writes an argument, so the
  arguments end as launched. Everything is stated for any float instance.
-/
import proofs.«162939_j11089605558541_2_alg».proof.Proof.Gen.KernelIdeal.Launch
import proofs.«162939_j11089605558541_2_alg».proof.Proof.Gen.KernelIdeal.Skeleton
import proofs.«162939_j11089605558541_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is its host operations, stretch by stretch, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes the argument `r` (each writes one buffer, and it is another): the region finds it as launched. -/
theorem V_arg (c : Dev nD) (r : Ref sig .tc)
    (hr : r = main_arg0 ∨ r = main_arg1 ∨ r = main_arg2 ∨ r = main_arg3 ∨ r = main_arg4 ∨ r = main_arg5 ∨ r = main_arg6) :
    V m c r = m ((c : Thread nD τ).loc r) :=
  StableHlo.after_of_forall_not_mem (b := Proc.devRef .tc r) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    rcases hr with h | h | h | h | h | h | h <;> subst h <;>
    · repeat' apply And.intro
      all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched its block index has not moved), for any proof data over the region-entry arrays whose body leaves the block in
    place. One statement per input window: the block's index type is the window's own. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each the whole of its buffer -/

abbrev rEmb : Rect S1x2048x512 := Rect.unit (s := S1x2048x512) ![0, 0, 0] S1x2048x512.size inb_S1x2048x512_S1x2048x512_0_0_0
abbrev rSmall : Rect S1x2048x128 := Rect.unit (s := S1x2048x128) ![0, 0, 0] S1x2048x128.size inb_S1x2048x128_S1x2048x128_0_0_0
abbrev rMask : Rect S1x2048x1 := Rect.unit (s := S1x2048x1) ![0, 0, 0] S1x2048x1.size inb_S1x2048x1_S1x2048x1_0_0_0
abbrev rWemb : Rect S512x1024 := Rect.unit (s := S512x1024) ![0, 0] S512x1024.size inb_S512x1024_S512x1024_0_0
abbrev rWsmall : Rect S128x1024 := Rect.unit (s := S128x1024) ![0, 0] S128x1024.size inb_S128x1024_S128x1024_0_0
abbrev rBias : Rect S1024 := Rect.unit (s := S1024) ![0] S1024.size inb_S1024_S1024_0
abbrev rOut : Rect S1x2048x1024 := Rect.unit (s := S1x2048x1024) ![0, 0, 0] S1x2048x1024.size inb_S1x2048x1024_S1x2048x1024_0_0_0

/-- The output window's staging buffer after the body, from the six input blocks: its one store, of the payload. -/
def outBlock (x0 : Vec F S1x2048x512 .f32) (x1 : Vec F S1x2048x128 .bf16) (x2 : Vec F S1x2048x1 .f32) (x3 : Vec F S512x1024 .bf16)
    (x4 : Vec F S128x1024 .bf16) (x5 : Vec F S1024 .f32) : Vec F S1x2048x1024 .f32 :=
  View.canon [⟨rOut, k0_pay1 (View.ld x0 rEmb) (View.ld x1 rSmall) (View.ld x3 rWemb) (View.ld x4 rWsmall) (View.ld x5 rBias) (View.ld x2 rMask)⟩]

/-- The one store covers the buffer. -/
theorem cover_out (p0 : Vec F S1x2048x1024 .f32) (y : S1x2048x1024.Idx) :
    ∃ pc ∈ ([⟨rOut, p0⟩] : List (View.Piece (Elt F) S1x2048x1024 .f32)), y ∈ pc.1.set :=
  View.cover_of_tiled [⟨rOut, p0⟩] S1x2048x1024.size (by rfl) y

/-! ## The body's triple -/

set_option maxHeartbeats 1000000 in
/-- The body on whole staging memrefs, the inputs' at contents `x0 … x5` and the output's at anything, runs to the
    continuation holding the inputs' as they were and the output's at `outBlock` of them. -/
theorem sound_kernel (c : Dev nD) (E : Set ℕ) (i : grid0.Coords)
    (arg1 : Memref sig .tc .vmem S1x2048x512 .f32) (harg1 : arg1.IsWhole) (arg2 : Memref sig .tc .vmem S1x2048x128 .bf16) (harg2 : arg2.IsWhole)
    (arg3 : Memref sig .tc .vmem S1x2048x1 .f32) (harg3 : arg3.IsWhole) (arg4 : Memref sig .tc .vmem S512x1024 .bf16) (harg4 : arg4.IsWhole)
    (arg5 : Memref sig .tc .vmem S128x1024 .bf16) (harg5 : arg5.IsWhole) (arg6 : Memref sig .tc .vmem S1024 .f32) (harg6 : arg6.IsWhole)
    (arg7 : Memref sig .tc .vmem S1x2048x1024 .f32) (harg7 : arg7.IsWhole)
    (x0 : Vec F S1x2048x512 .f32) (x1 : Vec F S1x2048x128 .bf16) (x2 : Vec F S1x2048x1 .f32) (x3 : Vec F S512x1024 .bf16)
    (x4 : Vec F S128x1024 .bf16) (x5 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlock x0 x1 x2 x3 x4 x5)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The pipeline's proof data -/

/-- The proof data of the pipeline on core `c`: the arrays as the region finds them; after the body at point `t` each
    input's buffer at its block and the output's at `outBlock` of the six input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) :
    (dats m 0 c).after 6 t = outBlock (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at the library's fold of the proof data over the points and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- In a final state of the frame run the arguments are as launched: the two the windows stage (window 0's array and
    window 5's) are inputs, whose arrays the fold leaves alone; the other five are no window's array. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_arg m c main_arg0 (.inl rfl)))),
    ((h c).2 main_arg1 (Pipeline.mem_restRefs_of main_arg1 (by decide) (by decide))).trans (V_arg m c main_arg1 (.inr (.inl rfl))),
    ((h c).2 main_arg2 (Pipeline.mem_restRefs_of main_arg2 (by decide) (by decide))).trans (V_arg m c main_arg2 (.inr (.inr (.inl rfl)))),
    ((h c).2 main_arg3 (Pipeline.mem_restRefs_of main_arg3 (by decide) (by decide))).trans (V_arg m c main_arg3 (.inr (.inr (.inr (.inl rfl))))),
    ((h c).2 main_arg4 (Pipeline.mem_restRefs_of main_arg4 (by decide) (by decide))).trans (V_arg m c main_arg4 (.inr (.inr (.inr (.inr (.inl rfl)))))),
    ((h c).2 main_arg5 (Pipeline.mem_restRefs_of main_arg5 (by decide) (by decide))).trans (V_arg m c main_arg5 (.inr (.inr (.inr (.inr (.inr (.inl rfl))))))),
    ((h c).1 5).trans (((dats m 0 c).arrAt_in 5 rfl _).trans ((A_eq m c 5).trans (V_arg m c main_arg6 (.inr (.inr (.inr (.inr (.inr (.inr rfl)))))))))⟩

/-- In a final state of the frame run the result array is the fold of the output window's write-backs. -/
theorem result_at (r : PUnit × MemSt nD τ sig (Elt F)) (h : Pipeline.FramePost cfgs (dats m) 0 (V m) r) (c : Dev nD) :
    r.2.mem ((c.tc : Thread nD τ).loc main_v13) = (dats m 0 c).arrAt 6 cfg0.N := (h c).1 6

/-- The frame: every weakly fair execution terminates, nothing faulting, the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => kept m r h c) (run_main m ρ)

end Cert.KernelIdeal.Frame

end
-- ==== Proof.IdealEntry.lean ====
/-
  The arrays the region finds, as functions of the arguments.

  Four of the arrays the windows stage are written by @main's host operations before the region. The padded small
  features are the join of the three small arrays, rounded, with 55 zero columns appended; the mask column is the mask
  bit read as a number; the embedding weights are the first 512 columns of the weight matrix, transposed and rounded;
  the small weights are its columns 512 to 584 with 55 zero columns appended, transposed and rounded. At the ideal
  values rounding is the identity, so each is the argument re-indexed, or zero in the padding.
-/
import proofs.«162939_j11089605558541_2_alg».proof.Proof.IdealFrame
import Idealize.ShloMosaic.Lib.StableHlo.Run
import Idealize.ShloMosaic.Lib.ValueLayout
import Idealize.ShloMosaic.Lib.KernelVsHost
import Idealize.ShloMosaic.Lib.Pipeline.Value

noncomputable section

namespace Cert.KernelIdeal.Entry

open Cert.KernelIdeal Cert.KernelIdeal.Gen Cert.KernelIdeal.Frame
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The three small arrays of the launch contents joined along the feature axis, 73 wide. -/
def small73 : S64x2048x73.Idx → EReal :=
  concatenate S64x2048x73 2 [⟨S64x2048x18, m ((c : Thread nD τ).loc main_arg1)⟩, ⟨S64x2048x4, m ((c : Thread nD τ).loc main_arg2)⟩,
    ⟨S64x2048x51, shapeCast _ (m ((c : Thread nD τ).loc main_arg3)) shapeCasts_S64x2048x17x3_S64x2048x51⟩]
    concatenates_S64x2048x18_S64x2048x4_S64x2048x51_S64x2048x73_d2

theorem V_small : (V m c main_v3 : S64x2048x128.Idx → EReal)
    = pad S64x2048x128 ![0, 0, 0] ![0, 0, 55] ![0, 0, 0] (small73 m c)
        (sitofp (F := Ideal) .bf16 (constantI S_ 32 0#32) : FVec Ideal S_ .bf16) pads_S64x2048x73_S64x2048x128_000_000_0550 h_S_ := by
  unfold small73
  dsimp only [V]
  simp only [hostOps0, hostOps0_1, hostOps0_2, hostOps0_3, hostOps0_4, List.flatten_cons, List.flatten_nil, List.append_nil, List.cons_append, List.nil_append]
  after_results <;> rfl

theorem V_mask : (V m c main_v5 : S64x2048x1.Idx → EReal)
    = broadcastInDim S64x2048x1 ![0, 1] bcast_S64x2048_S64x2048x1_0_1 (uitofp (F := Ideal) .f32 (m ((c : Thread nD τ).loc main_arg4)) : FVec Ideal S64x2048 .f32) := by
  dsimp only [V]
  simp only [hostOps0, hostOps0_1, hostOps0_2, hostOps0_3, hostOps0_4, List.flatten_cons, List.flatten_nil, List.append_nil, List.cons_append, List.nil_append]
  after_results <;> rfl

theorem V_wemb : (V m c main_v10 : S512x1024.Idx → EReal)
    = transpose S512x1024 [1, 0] (extractStridedSlice S1024x512 ![0, 0] (m ((c : Thread nD τ).loc main_arg5)) slices_S1024x585_S1024x512_0_0) transposes_S1024x512_S512x1024_1_0 := by
  dsimp only [V]
  simp only [hostOps0, hostOps0_1, hostOps0_2, hostOps0_3, hostOps0_4, List.flatten_cons, List.flatten_nil, List.append_nil, List.cons_append, List.nil_append]
  after_results <;> rfl

theorem V_wsmall : (V m c main_v12 : S128x1024.Idx → EReal)
    = transpose S128x1024 [1, 0] (pad S1024x128 ![0, 0] ![0, 55] ![0, 0] (extractStridedSlice S1024x73 ![0, 512] (m ((c : Thread nD τ).loc main_arg5)) slices_S1024x585_S1024x73_0_512) (sitofp (F := Ideal) .f32 (constantI S_ 32 0#32) : FVec Ideal S_ .f32) pads_S1024x73_S1024x128_000_0550 h_S_) transposes_S1024x128_S128x1024_1_0 := by
  dsimp only [V]
  simp only [hostOps0, hostOps0_1, hostOps0_2, hostOps0_3, hostOps0_4, List.flatten_cons, List.flatten_nil, List.append_nil, List.cons_append, List.nil_append]
  after_results <;> rfl

/-! ## Read at an entry -/

/-- The padded small features in their first 73 columns are the joined small features. -/
theorem small_inside (b : Fin 64) (n : Fin 2048) (k : Fin 73) :
    (V m c main_v3 : S64x2048x128.Idx → EReal) (ix3 b n (Fin.castAdd 55 k)) = small73 m c (ix3 b n k) := by
  refine (congrFun (V_small m c) _).trans ?_
  exact pad_apply_of_inside _ _ _ _ _ pads_S64x2048x73_S64x2048x128_000_000_0550 h_S_ (ix3 b n (Fin.castAdd 55 k)) (ix3 b n k)
    (fun a => by
      match a with
      | ⟨0, _⟩ => show b.val = 0 + b.val * (0 + 1); omega
      | ⟨1, _⟩ => show n.val = 0 + n.val * (0 + 1); omega
      | ⟨2, _⟩ => show k.val = 0 + k.val * (0 + 1); omega)

/-- and zero in the 55 columns appended. -/
theorem small_outside (b : Fin 64) (n : Fin 2048) (k : Fin 55) :
    (V m c main_v3 : S64x2048x128.Idx → EReal) (ix3 b n (Fin.natAdd 73 k)) = (0 : EReal) := by
  refine (congrFun (V_small m c) _).trans ?_
  refine (pad_apply_of_not_inside _ _ _ _ _ pads_S64x2048x73_S64x2048x128_000_000_0550 h_S_ (ix3 b n (Fin.natAdd 73 k)) (2 : Fin 3)
    (fun h3 => ?_)).trans ?_
  · have h3' : (73 + k.val - 0) / (0 + 1) < 73 := h3.2.2
    omega
  · exact sitofp_zero (φ := .bf16)

/-- The mask column holds the mask bit read as a number. -/
theorem mask_apply (b : Fin 64) (n : Fin 2048) :
    (V m c main_v5 : S64x2048x1.Idx → EReal) (ix3 b n (0 : Fin 1))
      = ((((m ((c : Thread nD τ).loc main_arg4) : S64x2048.Idx → BitVec 1) (ix2 b n)).toNat : ℝ) : EReal) := by
  refine (congrFun (V_mask m c) _).trans ?_
  exact broadcastInDim_apply _ bcast_S64x2048_S64x2048x1_0_1 _ (ix3 b n (0 : Fin 1)) (ix2 b n) (fun a => by
    match a with
    | ⟨0, _⟩ => show b.val = if (64 : ℕ) = 1 then 0 else b.val; rw [if_neg (by decide)]
    | ⟨1, _⟩ => show n.val = if (2048 : ℕ) = 1 then 0 else n.val; rw [if_neg (by decide)])

/-- The embedding weights at (k, j) are the weight matrix at (j, k). -/
theorem wemb_apply (k : Fin 512) (j : Fin 1024) :
    (V m c main_v10 : S512x1024.Idx → EReal) (ix2 k j)
      = (m ((c : Thread nD τ).loc main_arg5) : S1024x585.Idx → EReal) (ix2 j (Fin.castAdd 73 k)) := by
  refine (congrFun (V_wemb m c) _).trans ?_
  refine (transpose_ix2_apply _ transposes_S1024x512_S512x1024_1_0 k j).trans ?_
  exact slice2_axis1_apply 0 _ slices_S1024x585_S1024x512_0_0 j k (Fin.castAdd 73 k) (Nat.zero_add _).symm

/-- The small weights at (k, j), k < 73, are the weight matrix at (j, 512 + k), -/
theorem wsmall_inside (k : Fin 73) (j : Fin 1024) :
    (V m c main_v12 : S128x1024.Idx → EReal) (ix2 (Fin.castAdd 55 k) j)
      = (m ((c : Thread nD τ).loc main_arg5) : S1024x585.Idx → EReal) (ix2 j (Fin.natAdd 512 k)) := by
  refine (congrFun (V_wsmall m c) _).trans ?_
  refine (transpose_ix2_apply _ transposes_S1024x128_S128x1024_1_0 (Fin.castAdd 55 k) j).trans ?_
  refine (pad_apply_of_inside _ _ _ _ _ pads_S1024x73_S1024x128_000_0550 h_S_ (ix2 j (Fin.castAdd 55 k)) (ix2 j k) (fun a => by
    match a with
    | ⟨0, _⟩ => show j.val = 0 + j.val * (0 + 1); omega
    | ⟨1, _⟩ => show k.val = 0 + k.val * (0 + 1); omega)).trans ?_
  exact slice2_axis1_apply 512 _ slices_S1024x585_S1024x73_0_512 j k (Fin.natAdd 512 k) rfl

/-- and zero in the 55 rows appended. -/
theorem wsmall_outside (k : Fin 55) (j : Fin 1024) :
    (V m c main_v12 : S128x1024.Idx → EReal) (ix2 (Fin.natAdd 73 k) j) = (0 : EReal) := by
  refine (congrFun (V_wsmall m c) _).trans ?_
  refine (transpose_ix2_apply _ transposes_S1024x128_S128x1024_1_0 (Fin.natAdd 73 k) j).trans ?_
  refine (pad_apply_of_not_inside _ _ _ _ _ pads_S1024x73_S1024x128_000_0550 h_S_ (ix2 j (Fin.natAdd 73 k)) (1 : Fin 2)
    (fun h3 => ?_)).trans ?_
  · have h3' : (73 + k.val - 0) / (0 + 1) < 73 := h3.2.2
    omega
  · exact sitofp_zero (φ := .f32)

end Cert.KernelIdeal.Entry

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.Payload.lean ====
/-
  The kernel body's value at one entry of its block.

  At a point the body holds the image's 2048×512 embedding block, its 2048×128 block of padded small features, the
  512×1024 and 128×1024 weight blocks, the 1024 bias entries and the 2048×1 mask column. The value it stores at
  (n, j) is the sum over the 512 embedding coordinates of embedding (n, k) times weight (k, j), plus the sum over the
  128 padded coordinates of small (n, k) times small-weight (k, j), plus bias j, all times mask n. Read at the ideal
  values: the change of float format is the identity, the matrix unit's product into the zero accumulator is the plain
  sum of products, and the casts and broadcasts only re-index.
-/
import proofs.«162939_j11089605558541_2_alg».proof.Proof.Gen.KernelIdeal.Skeleton
import proofs.«162939_j11089605558541_2_alg».proof.Proof.LibPlainMatmul
import Idealize.ShloMosaic.Lib.ValueLayout
import Idealize.ShloMosaic.Lib.Pipeline.Value
import Idealize.ShloMosaic.Lib.ValueIdx

noncomputable section

open scoped BigOperators

namespace Cert.KernelIdeal.Payload

open Cert.KernelIdeal Cert.KernelIdeal.Gen Idealize.ShloMosaic Idealize.ShloMosaic.ValueIdx

/-- A column of `a` entries broadcast to `a × b` reads, at (p, c), the column's entry p. -/
theorem broadcastTo_column_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The embedding product at (n, j): the sum over the 512 coordinates. -/
theorem embProduct_apply (x0 : Vec Ideal S1x2048x512 .f32) (x3 : Vec Ideal S512x1024 .bf16) (n : Fin 2048) (j : Fin 1024) :
    matmul (F := Ideal) (φ₁ := .bf16) (φ₂ := .bf16) dot_S2048x512_S512x1024_S2048x1024_1_0_0_1_n_n none
        (truncf .bf16 (shapeCast S2048x512 x0 shapeCasts_S1x2048x512_S2048x512 : FVec Ideal S2048x512 .f32) bitsLt_bf16_f32)
        (shapeCast S512x1024 x3 shapeCasts_S512x1024_S512x1024 : FVec Ideal S512x1024 .bf16) (constant (F := Ideal) S2048x1024 .f32 0x00000000#32) (ix2 n j)
      = ∑ k : Fin 512, x0 (ix3 (0 : Fin 1) n k) * x3 (ix2 k j) := by
  refine (PlainMatmul.matmul_zero_apply (φ₁ := .bf16) (φ₂ := .bf16) _ rfl rfl rfl rfl rfl rfl none _ _ n j).trans ?_
  refine Finset.sum_congr rfl fun k _ => ?_
  exact congrArg₂ (· * ·) (shapeCast_1ab_ab_apply x0 _ n k) (congrFun (shapeCast_self x3 _) (ix2 k j))

/-- The small-feature product at (n, j): the sum over the 128 padded coordinates. -/
theorem smallProduct_apply (x1 : Vec Ideal S1x2048x128 .bf16) (x4 : Vec Ideal S128x1024 .bf16) (n : Fin 2048) (j : Fin 1024) :
    matmul (F := Ideal) (φ₁ := .bf16) (φ₂ := .bf16) dot_S2048x128_S128x1024_S2048x1024_1_0_0_1_n_n none
        (shapeCast S2048x128 x1 shapeCasts_S1x2048x128_S2048x128 : FVec Ideal S2048x128 .bf16)
        (shapeCast S128x1024 x4 shapeCasts_S128x1024_S128x1024 : FVec Ideal S128x1024 .bf16) (constant (F := Ideal) S2048x1024 .f32 0x00000000#32) (ix2 n j)
      = ∑ k : Fin 128, x1 (ix3 (0 : Fin 1) n k) * x4 (ix2 k j) := by
  refine (PlainMatmul.matmul_zero_apply (φ₁ := .bf16) (φ₂ := .bf16) _ rfl rfl rfl rfl rfl rfl none _ _ n j).trans ?_
  refine Finset.sum_congr rfl fun k _ => ?_
  exact congrArg₂ (· * ·) (shapeCast_1ab_ab_apply x1 _ n k) (congrFun (shapeCast_self x4 _) (ix2 k j))

/-- The bias row at (n, j) is bias j. -/
theorem biasRow_apply (x5 : Vec Ideal S1024 .f32) (n : Fin 2048) (j : Fin 1024) :
    broadcastTo S2048x1024 (shapeCast S1x1024 x5 shapeCasts_S1024_S1x1024) broadcasts_S1x1024_S2048x1024 (ix2 n j) = x5 (ix1 j) :=
  (broadcastTo_1b_ab_apply _ _ n j).trans (shapeCast_a_1a_apply x5 _ (0 : Fin 1) j)

/-- The mask column at (n, j) is mask n. -/
theorem maskColumn_apply (x2 : Vec Ideal S1x2048x1 .f32) (n : Fin 2048) (j : Fin 1024) :
    broadcastTo S2048x1024 (shapeCast S2048x1 x2 shapeCasts_S1x2048x1_S2048x1) broadcasts_S2048x1_S2048x1024 (ix2 n j)
      = x2 (ix3 (0 : Fin 1) n (0 : Fin 1)) :=
  (broadcastTo_column_apply _ _ n j).trans (shapeCast_1ab_ab_apply x2 _ n (0 : Fin 1))

/-- The body's stored value at entry (n, j) of its block. -/
theorem pay_apply (x0 : Vec Ideal S1x2048x512 .f32) (x1 : Vec Ideal S1x2048x128 .bf16) (x3 : Vec Ideal S512x1024 .bf16)
    (x4 : Vec Ideal S128x1024 .bf16) (x5 : Vec Ideal S1024 .f32) (x2 : Vec Ideal S1x2048x1 .f32)
    (u : Fin 1) (n : Fin 2048) (j : Fin 1024) :
    k0_pay1 x0 x1 x3 x4 x5 x2 (ix3 u n j)
      = ((∑ k : Fin 512, x0 (ix3 (0 : Fin 1) n k) * x3 (ix2 k j) + ∑ k : Fin 128, x1 (ix3 (0 : Fin 1) n k) * x4 (ix2 k j))
          + x5 (ix1 j)) * x2 (ix3 (0 : Fin 1) n (0 : Fin 1)) := by
  unfold k0_pay1
  refine (shapeCast_ab_1ab_apply _ _ u n j).trans ?_
  exact congrArg₂ (· * ·)
    (congrArg₂ (· + ·) (congrArg₂ (· + ·) (embProduct_apply x0 x3 n j) (smallProduct_apply x1 x4 n j)) (biasRow_apply x5 n j))
    (maskColumn_apply x2 n j)

end Cert.KernelIdeal.Payload

end
-- ==== Proof.Tokens.lean ====
/-
  The value both programs compute, and the two laws that join them.

  For an image b, a token n and an output feature j the result is the row of joined features of (b, n) times row j
  of the weights, plus the bias at j, kept where the mask bit of (b, n) is one and zero elsewhere. The joined
  feature row has 585 entries: the 512 embedding entries, then the 73 small-feature entries. The sum is written
  here already cut at 512, which is how the kernel computes it; `sum_join` is the cut itself. The kernel pads the
  small part with zeros to 128 entries (`sum_padded`: a sum over 128 terms whose last 55 vanish is the sum over the
  first 73), and applies the mask by multiplying with the bit read as a number (`mul_bit`: times one keeps, times
  zero gives zero, on every extended real). Sums of extended reals may be regrouped freely and x · 0 = 0 also at
  the infinities, so nothing here needs the entries to be finite.
-/
import Idealize.ShloMosaic.Lib.ValueIdx
import Idealize.ShloMosaic.PureOps.Ideal

noncomputable section

open scoped BigOperators

namespace Cert.Tokens

open Idealize.ShloMosaic Idealize.ShloMosaic.ValueIdx

/-- Entry (b, n, j) of the result: Σ_{k<512} emb(b,n,k)·W(j,k) + Σ_{k<73} small(b,n,k)·W(j,512+k) + bias(j) where the mask
    bit of (b, n) is one, zero where it is not. -/
def token (emb : (⟨3, ![64, 2048, 512]⟩ : Shape).Idx → EReal) (small : (⟨3, ![64, 2048, 73]⟩ : Shape).Idx → EReal)
    (mask : (⟨2, ![64, 2048]⟩ : Shape).Idx → BitVec 1) (W : (⟨2, ![1024, 585]⟩ : Shape).Idx → EReal)
    (bias : (⟨1, ![1024]⟩ : Shape).Idx → EReal) (b : Fin 64) (n : Fin 2048) (j : Fin 1024) : EReal :=
  Scalar.select (mask (ix2 b n))
    ((∑ k : Fin 512, emb (ix3 b n k) * W (ix2 j (Fin.castAdd 73 k))
      + ∑ k : Fin 73, small (ix3 b n k) * W (ix2 j (Fin.natAdd 512 k))) + bias (ix1 j)) 0

/-- The whole result array. -/
def tokens (emb : (⟨3, ![64, 2048, 512]⟩ : Shape).Idx → EReal) (small : (⟨3, ![64, 2048, 73]⟩ : Shape).Idx → EReal)
    (mask : (⟨2, ![64, 2048]⟩ : Shape).Idx → BitVec 1) (W : (⟨2, ![1024, 585]⟩ : Shape).Idx → EReal)
    (bias : (⟨1, ![1024]⟩ : Shape).Idx → EReal) : (⟨3, ![64, 2048, 1024]⟩ : Shape).Idx → EReal :=
  fun i => token emb small mask W bias (i 0) (i 1) (i 2)

theorem tokens_apply (emb : (⟨3, ![64, 2048, 512]⟩ : Shape).Idx → EReal) (small : (⟨3, ![64, 2048, 73]⟩ : Shape).Idx → EReal)
    (mask : (⟨2, ![64, 2048]⟩ : Shape).Idx → BitVec 1) (W : (⟨2, ![1024, 585]⟩ : Shape).Idx → EReal)
    (bias : (⟨1, ![1024]⟩ : Shape).Idx → EReal) (b : Fin 64) (n : Fin 2048) (j : Fin 1024) :
    tokens emb small mask W bias (ix3 b n j) = token emb small mask W bias b n j := rfl

/-- A sum over the 585 joined coordinates is the sum over the first 512 plus the sum over the last 73. -/
theorem sum_join {M : Type*} [AddCommMonoid M] (f : Fin 585 → M) :
    ∑ k : Fin 585, f k = ∑ k : Fin 512, f (Fin.castAdd 73 k) + ∑ k : Fin 73, f (Fin.natAdd 512 k) :=
  Fin.sum_univ_add (f := fun k : Fin (512 + 73) => f k)

/-- A sum over 128 terms whose last 55 vanish is the sum over the first 73. -/
theorem sum_padded {M : Type*} [AddCommMonoid M] (h : Fin 128 → M) (hz : ∀ k : Fin 55, h (Fin.natAdd 73 k) = 0) :
    ∑ k : Fin 128, h k = ∑ k : Fin 73, h (Fin.castAdd 55 k) := by
  have e : ∑ k : Fin 128, h k = ∑ k : Fin 73, h (Fin.castAdd 55 k) + ∑ k : Fin 55, h (Fin.natAdd 73 k) :=
    Fin.sum_univ_add (f := fun k : Fin (73 + 55) => h k)
  rw [e, Finset.sum_eq_zero fun k _ => hz k, add_zero]

/-- Multiplying by a bit read as a number keeps the value where the bit is one and gives zero where it is not. -/
theorem mul_bit (x : EReal) (b : BitVec 1) : x * (((b.toNat : ℝ)) : EReal) = Scalar.select b x 0 := by
  by_cases hb : b = 1#1
  · subst hb
    rw [select_one]
    show x * (((1 : ℕ) : ℝ) : EReal) = x
    simp
  · have hb0 := eq_zero_of_ne_one hb
    subst hb0
    rw [select_zero]
    show x * (((0 : ℕ) : ℝ) : EReal) = 0
    simp

end Cert.Tokens

end
-- ==== Proof.IdealValue.lean ====
/-
  The kernel's result array is the token function of the arguments.

  Point t of the grid stages image t: each of the three per-image windows has block index (t, 0, 0), the two weight
  windows and the bias window block index zero, and the output window block index (t, 0, 0). So what point t writes back
  is block t of ONE array, the function `arr` below of the arrays the region finds; the 64 blocks tile the result, and
  the run's fold over the points leaves exactly that array. Reading the staged arrays as functions of the arguments (the
  zero padding drops out of the second sum, the mask column is the bit as a number) turns it into the token function.
-/
import proofs.«162939_j11089605558541_2_alg».proof.Proof.IdealFrame
import proofs.«162939_j11089605558541_2_alg».proof.Proof.IdealEntry
import proofs.«162939_j11089605558541_2_alg».proof.Proof.Payload
import proofs.«162939_j11089605558541_2_alg».proof.Proof.Tokens
import Idealize.ShloMosaic.Lib.Pipeline.Value

set_option maxRecDepth 16384

noncomputable section

open scoped BigOperators

namespace Cert.KernelIdeal.Result

open Cert.KernelIdeal Cert.KernelIdeal.Gen Cert.KernelIdeal.Frame Cert.KernelIdeal.Entry Cert.KernelIdeal.Payload Cert.Tokens
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Entry (b, n, j) of the array the 64 blocks make up, from the arrays the region finds. -/
def entry (E : S64x2048x512.Idx → EReal) (P : S64x2048x128.Idx → EReal) (Mk : S64x2048x1.Idx → EReal) (We : S512x1024.Idx → EReal)
    (Ws : S128x1024.Idx → EReal) (B : S1024.Idx → EReal) (b : Fin 64) (n : Fin 2048) (j : Fin 1024) : EReal :=
  ((∑ k : Fin 512, E (ix3 b n k) * We (ix2 k j) + ∑ k : Fin 128, P (ix3 b n k) * Ws (ix2 k j)) + B (ix1 j)) * Mk (ix3 b n (0 : Fin 1))

def arr (E : S64x2048x512.Idx → EReal) (P : S64x2048x128.Idx → EReal) (Mk : S64x2048x1.Idx → EReal) (We : S512x1024.Idx → EReal)
    (Ws : S128x1024.Idx → EReal) (B : S1024.Idx → EReal) : S64x2048x1024.Idx → EReal :=
  fun i => entry E P Mk We Ws B (i 0) (i 1) (i 2)

/-- `entry` is the token function once the staged arrays are read as functions of the arguments: the embedding block and
    the bias as they are, the weight blocks as the weight matrix transposed, the padded small features and weights as the
    small ones followed by zeros, the mask column as the bit read as a number. -/
theorem entry_eq_token (E : S64x2048x512.Idx → EReal) (P : S64x2048x128.Idx → EReal) (Mk : S64x2048x1.Idx → EReal)
    (We : S512x1024.Idx → EReal) (Ws : S128x1024.Idx → EReal) (B : S1024.Idx → EReal)
    (emb : S64x2048x512.Idx → EReal) (small : S64x2048x73.Idx → EReal) (mask : S64x2048.Idx → BitVec 1)
    (W : S1024x585.Idx → EReal) (bias : S1024.Idx → EReal) (b : Fin 64) (n : Fin 2048) (j : Fin 1024)
    (hE : ∀ k : Fin 512, E (ix3 b n k) = emb (ix3 b n k))
    (hWe : ∀ k : Fin 512, We (ix2 k j) = W (ix2 j (Fin.castAdd 73 k)))
    (hPin : ∀ k : Fin 73, P (ix3 b n (Fin.castAdd 55 k)) = small (ix3 b n k))
    (hPout : ∀ k : Fin 55, P (ix3 b n (Fin.natAdd 73 k)) = 0)
    (hWs : ∀ k : Fin 73, Ws (ix2 (Fin.castAdd 55 k) j) = W (ix2 j (Fin.natAdd 512 k)))
    (hB : B (ix1 j) = bias (ix1 j))
    (hM : Mk (ix3 b n (0 : Fin 1)) = (((mask (ix2 b n)).toNat : ℝ) : EReal)) :
    entry E P Mk We Ws B b n j = token emb small mask W bias b n j := by
  unfold entry token
  have hA : ∑ k : Fin 512, E (ix3 b n k) * We (ix2 k j) = ∑ k : Fin 512, emb (ix3 b n k) * W (ix2 j (Fin.castAdd 73 k)) :=
    Finset.sum_congr rfl fun k _ => congrArg₂ (· * ·) (hE k) (hWe k)
  have hS : ∑ k : Fin 128, P (ix3 b n k) * Ws (ix2 k j) = ∑ k : Fin 73, small (ix3 b n k) * W (ix2 j (Fin.natAdd 512 k)) := by
    refine (sum_padded (fun k : Fin 128 => P (ix3 b n k) * Ws (ix2 k j)) (fun k => ?_)).trans ?_
    · show P (ix3 b n (Fin.natAdd 73 k)) * Ws (ix2 (Fin.natAdd 73 k) j) = 0
      rw [hPout k, zero_mul]
    · exact Finset.sum_congr rfl fun k _ => congrArg₂ (· * ·) (hPin k) (hWs k)
  rw [hA, hS, hB, hM]
  exact mul_bit _ _

/-- The printed index maps over the grid: the per-image windows move with the point, the others stay at zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0 :=
  (by decide +kernel : ∀ t : Fin grid0.N, _)

/-- The image a point stages. -/
abbrev img (t : Fin cfg0.N) : Fin 64 := ⟨t.val, by have h := t.isLt; have e : cfg0.N = 64 := N_0; omega⟩

/-- WHAT POINT `t` WRITES BACK is block `t` of `arr` of the arrays as the region finds them. -/
theorem flushed_eq (c : Dev nD) (t : Fin cfg0.N) :
    (dats m 0 c).flushed 6 t = ((cfg0.win 6).blk t).view.read (Elt Ideal)
      (arr (V m c main_arg0) (V m c main_v3) (V m c main_v5) (V m c main_v10) (V m c main_v12) (V m c main_arg6)) := by
  show (cfg0.win 6).cut (grid0.coords t) ((dats m 0 c).after 6 t) = _
  rw [after0_6]
  unfold outBlock
  rw [View.canon_unit_zero hz3]
  simp only [View.ld_unit_zero (S := S1x2048x512) hz3, View.ld_unit_zero (S := S1x2048x128) hz3, View.ld_unit_zero (S := S1x2048x1) hz3,
    View.ld_unit_zero (S := S512x1024) hz2, View.ld_unit_zero (S := S128x1024) hz2, View.ld_unit_zero (S := S1024) hz1]
  obtain ⟨a00, a01, a02, a10, a11, a12, a20, a21, a22, a30, a31, a40, a41, a50, a60, a61, a62⟩ := idx_facts t
  funext y
  obtain ⟨u, n, j, rfl⟩ : ∃ (u : Fin 1) (n : Fin 2048) (j : Fin 1024), y = ix3 u n j := ⟨y 0, y 1, y 2, eq_ix3 y⟩
  have hu : u.val = 0 := by omega
  refine (pay_apply (iblk m c 0 t) (iblk m c 1 t) (iblk m c 3 t) (iblk m c 4 t) (iblk m c 5 t) (iblk m c 2 t) u n j).trans ?_
  have he : ((cfg0.win 6).blk t).view.emb (ix3 u n j) = (ix3 (img t) n j : S64x2048x1024.Idx) := by
    funext a; apply Fin.ext
    match a with
    | ⟨0, _⟩ => show win0_6.index t (0 : Fin 3) * 1 + 1 * u.val = t.val; omega
    | ⟨1, _⟩ => show win0_6.index t (1 : Fin 3) * 2048 + 1 * n.val = n.val; omega
    | ⟨2, _⟩ => show win0_6.index t (2 : Fin 3) * 1024 + 1 * j.val = j.val; omega
  have b0 : ∀ k : Fin 512, iblk m c 0 t (ix3 (0 : Fin 1) n k) = V m c main_arg0 (ix3 (img t) n k) := fun k => by
    show V m c main_arg0 (((cfg0.win 0).blk t).view.emb (ix3 (0 : Fin 1) n k)) = V m c main_arg0 (ix3 (img t) n k)
    refine congrArg (V m c main_arg0) (funext fun a => Fin.ext ?_)
    match a with
    | ⟨0, _⟩ => show win0_0.index t (0 : Fin 3) * 1 + 1 * 0 = t.val; omega
    | ⟨1, _⟩ => show win0_0.index t (1 : Fin 3) * 2048 + 1 * n.val = n.val; omega
    | ⟨2, _⟩ => show win0_0.index t (2 : Fin 3) * 512 + 1 * k.val = k.val; omega
  have b1 : ∀ k : Fin 128, iblk m c 1 t (ix3 (0 : Fin 1) n k) = V m c main_v3 (ix3 (img t) n k) := fun k => by
    show V m c main_v3 (((cfg0.win 1).blk t).view.emb (ix3 (0 : Fin 1) n k)) = V m c main_v3 (ix3 (img t) n k)
    refine congrArg (V m c main_v3) (funext fun a => Fin.ext ?_)
    match a with
    | ⟨0, _⟩ => show win0_1.index t (0 : Fin 3) * 1 + 1 * 0 = t.val; omega
    | ⟨1, _⟩ => show win0_1.index t (1 : Fin 3) * 2048 + 1 * n.val = n.val; omega
    | ⟨2, _⟩ => show win0_1.index t (2 : Fin 3) * 128 + 1 * k.val = k.val; omega
  have b2 : iblk m c 2 t (ix3 (0 : Fin 1) n (0 : Fin 1)) = V m c main_v5 (ix3 (img t) n (0 : Fin 1)) := by
    show V m c main_v5 (((cfg0.win 2).blk t).view.emb (ix3 (0 : Fin 1) n (0 : Fin 1))) = V m c main_v5 (ix3 (img t) n (0 : Fin 1))
    refine congrArg (V m c main_v5) (funext fun a => Fin.ext ?_)
    match a with
    | ⟨0, _⟩ => show win0_2.index t (0 : Fin 3) * 1 + 1 * 0 = t.val; omega
    | ⟨1, _⟩ => show win0_2.index t (1 : Fin 3) * 2048 + 1 * n.val = n.val; omega
    | ⟨2, _⟩ => show win0_2.index t (2 : Fin 3) * 1 + 1 * 0 = 0; omega
  have b3 : ∀ k : Fin 512, iblk m c 3 t (ix2 k j) = V m c main_v10 (ix2 k j) := fun k => by
    show V m c main_v10 (((cfg0.win 3).blk t).view.emb (ix2 k j)) = V m c main_v10 (ix2 k j)
    refine congrArg (V m c main_v10) (funext fun a => Fin.ext ?_)
    match a with
    | ⟨0, _⟩ => show win0_3.index t (0 : Fin 2) * 512 + 1 * k.val = k.val; omega
    | ⟨1, _⟩ => show win0_3.index t (1 : Fin 2) * 1024 + 1 * j.val = j.val; omega
  have b4 : ∀ k : Fin 128, iblk m c 4 t (ix2 k j) = V m c main_v12 (ix2 k j) := fun k => by
    show V m c main_v12 (((cfg0.win 4).blk t).view.emb (ix2 k j)) = V m c main_v12 (ix2 k j)
    refine congrArg (V m c main_v12) (funext fun a => Fin.ext ?_)
    match a with
    | ⟨0, _⟩ => show win0_4.index t (0 : Fin 2) * 128 + 1 * k.val = k.val; omega
    | ⟨1, _⟩ => show win0_4.index t (1 : Fin 2) * 1024 + 1 * j.val = j.val; omega
  have b5 : iblk m c 5 t (ix1 j) = V m c main_arg6 (ix1 j) := by
    show V m c main_arg6 (((cfg0.win 5).blk t).view.emb (ix1 j)) = V m c main_arg6 (ix1 j)
    refine congrArg (V m c main_arg6) (funext fun a => Fin.ext ?_)
    match a with
    | ⟨0, _⟩ => show win0_5.index t (0 : Fin 1) * 1024 + 1 * j.val = j.val; omega
  show _ = arr (V m c main_arg0) (V m c main_v3) (V m c main_v5) (V m c main_v10) (V m c main_v12) (V m c main_arg6)
    (((cfg0.win 6).blk t).view.emb (ix3 u n j))
  rw [he]
  show _ = entry (V m c main_arg0) (V m c main_v3) (V m c main_v5) (V m c main_v10) (V m c main_v12) (V m c main_arg6) (img t) n j
  unfold entry
  exact congrArg₂ (· * ·)
    (congrArg₂ (· + ·)
      (congrArg₂ (· + ·) (Finset.sum_congr rfl fun k _ => congrArg₂ (· * ·) (b0 k) (b3 k))
        (Finset.sum_congr rfl fun k _ => congrArg₂ (· * ·) (b1 k) (b4 k))) b5) b2

/-- An index of the result is in point `t`'s block iff each coordinate is in the block's range on its axis. -/
theorem mem_blk (t : Fin cfg0.N) (i : S64x2048x1024.Idx) :
    i ∈ ((cfg0.win 6).blk t).view.set ↔ ∀ a : Fin 3, win0_6.index t a * S1x2048x1024.size a ≤ (i a).val
      ∧ (i a).val < win0_6.index t a * S1x2048x1024.size a + S1x2048x1024.size a := by
  show i ∈ ((View.whole main_v13).slice (win0_6.rect t)).set ↔ _
  rw [View.set_slice_whole, Rect.mem_set_unit]
  exact Iff.rfl

/-- Every index of the result is in the block of the point that stages its image. -/
theorem cover (i : S64x2048x1024.Idx) : ∃ t : Fin cfg0.N, (cfg0.win 6).flush t = true ∧ i ∈ ((cfg0.win 6).blk t).view.set := by
  have hi0 : (i 0).val < 64 := (i 0).isLt
  have hi1 : (i 1).val < 2048 := (i 1).isLt
  have hi2 : (i 2).val < 1024 := (i 2).isLt
  have hN : cfg0.N = 64 := N_0
  let t : Fin cfg0.N := ⟨(i 0).val, by omega⟩
  obtain ⟨-, -, -, -, -, -, -, -, -, -, -, -, -, -, a60, a61, a62⟩ := idx_facts t
  have ht : t.val = (i 0).val := rfl
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2048 ≤ (i 1).val ∧ (i 1).val < win0_6.index t (1 : Fin 3) * 2048 + 2048; omega
  | ⟨2, _⟩ => show win0_6.index t (2 : Fin 3) * 1024 ≤ (i 2).val ∧ (i 2).val < win0_6.index t (2 : Fin 3) * 1024 + 1024; omega

/-- THE RESULT ARRAY after the run. -/
theorem final (c : Dev nD) : (dats m 0 c).arrAt 6 cfg0.N
    = arr (V m c main_arg0) (V m c main_v3) (V m c main_v5) (V m c main_v10) (V m c main_v12) (V m c main_arg6) :=
  (dats m 0 c).arrAt_eq_of_cover 6 _ (fun t _ => flushed_eq m c t) cover

/-- That array is the token function of the arguments, the short join of the three small arrays as the small features. -/
theorem arr_eq_tokens (c : Dev nD) :
    arr (V m c main_arg0) (V m c main_v3) (V m c main_v5) (V m c main_v10) (V m c main_v12) (V m c main_arg6)
      = tokens (m ((c : Thread nD τ).loc main_arg0)) (small73 m c) (m ((c : Thread nD τ).loc main_arg4))
          (m ((c : Thread nD τ).loc main_arg5)) (m ((c : Thread nD τ).loc main_arg6)) := by
  funext i
  obtain ⟨b, n, j, rfl⟩ : ∃ (b : Fin 64) (n : Fin 2048) (j : Fin 1024), i = ix3 b n j := ⟨i 0, i 1, i 2, eq_ix3 i⟩
  rw [tokens_apply]
  show entry (V m c main_arg0) (V m c main_v3) (V m c main_v5) (V m c main_v10) (V m c main_v12) (V m c main_arg6) b n j = _
  exact entry_eq_token _ _ _ _ _ _ _ _ _ _ _ b n j
    (fun k => by rw [V_arg m c main_arg0 (.inl rfl)])
    (fun k => wemb_apply m c k j) (fun k => small_inside m c b n k) (fun k => small_outside m c b n k)
    (fun k => wsmall_inside m c k j)
    (by rw [V_arg m c main_arg6 (.inr (.inr (.inr (.inr (.inr (.inr rfl))))))])
    (mask_apply m c b n)

/-- The frame run read: the result array at the token function of the launch contents, the arguments unchanged. -/
theorem run : θ_run defs (onTc (τ := τ) (main (F := Ideal))) ⟨m, fun _ => 0, ρ⟩ fun r => ∀ c : Dev nD,
      r.2.mem ((c.tc : Thread nD τ).loc main_v13) = tokens (m ((c : Thread nD τ).loc main_arg0)) (small73 m c)
          (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(result_at m r h c).trans ((final m c).trans (arr_eq_tokens m c)), kept m r h c⟩) (run_main m ρ)

end Cert.KernelIdeal.Result

end
-- ==== Proof.Joined.lean ====
/-
  Two joins along the last axis, read at a coordinate.

  The reference joins four arrays along the last axis, of widths 512, 18, 4 and 51 (585 in all); the kernel's program
  joins only the last three (73 in all). Coordinate k < 512 of the long join is the first array's coordinate k, and
  coordinate 512 + k of the long join is coordinate k of the short join: both are the same one of the three narrow
  arrays, at the same place in it.
-/
import Idealize.ShloMosaic.Lib.Pipeline.Value
import Idealize.ShloMosaic.Lib.ValueIdx

noncomputable section

namespace Cert.Tokens

open Idealize.ShloMosaic Idealize.ShloMosaic.ValueIdx

variable {α : Type}

/-- Two indices with the same first two coordinates agree off the last axis. -/
private theorem off_axis {n0 n1 p q : ℕ} (b : Fin n0) (n : Fin n1) (c : Fin p) (d : Fin q)
    (hr : (⟨3, ![n0, n1, p]⟩ : Shape).rank = (⟨3, ![n0, n1, q]⟩ : Shape).rank) :
    ∀ b' : Fin (⟨3, ![n0, n1, p]⟩ : Shape).rank, b'.cast hr ≠ (2 : Fin 3) →
      ((ix3 b n c) b').val = ((ix3 b n d) (b'.cast hr)).val := by
  intro b' hb'
  match b', hb' with
  | ⟨0, _⟩, _ => rfl
  | ⟨1, _⟩, _ => rfl
  | ⟨2, _⟩, hb' => exact absurd (Fin.ext rfl) hb'

/-- The first 512 coordinates of the long join are the first array's. -/
theorem joined_left (x0 : (⟨3, ![64, 2048, 512]⟩ : Shape).Idx → α) (x1 : (⟨3, ![64, 2048, 18]⟩ : Shape).Idx → α)
    (x2 : (⟨3, ![64, 2048, 4]⟩ : Shape).Idx → α) (v0 : (⟨3, ![64, 2048, 51]⟩ : Shape).Idx → α)
    (h : Shape.Concatenates [(⟨3, ![64, 2048, 512]⟩ : Shape), ⟨3, ![64, 2048, 18]⟩, ⟨3, ![64, 2048, 4]⟩, ⟨3, ![64, 2048, 51]⟩] ⟨3, ![64, 2048, 585]⟩ 2)
    (b : Fin 64) (n : Fin 2048) (k : Fin 512) :
    concatenate ⟨3, ![64, 2048, 585]⟩ 2 [⟨⟨3, ![64, 2048, 512]⟩, x0⟩, ⟨⟨3, ![64, 2048, 18]⟩, x1⟩, ⟨⟨3, ![64, 2048, 4]⟩, x2⟩, ⟨⟨3, ![64, 2048, 51]⟩, v0⟩] h
        (ix3 b n (Fin.castAdd 73 k)) = x0 (ix3 b n k) :=
  concatenate_apply_piece 2 [⟨⟨3, ![64, 2048, 512]⟩, x0⟩, ⟨⟨3, ![64, 2048, 18]⟩, x1⟩, ⟨⟨3, ![64, 2048, 4]⟩, x2⟩, ⟨⟨3, ![64, 2048, 51]⟩, v0⟩] h (ix3 b n (Fin.castAdd 73 k)) 0 (by simp) _ x0 rfl rfl 0 rfl (ix3 b n k) (off_axis (p := 512) (q := 585) b n k (Fin.castAdd 73 k) rfl) (Nat.zero_add _)

/-- Coordinate 512 + k of the long join is coordinate k of the short one. -/
theorem joined_right (x0 : (⟨3, ![64, 2048, 512]⟩ : Shape).Idx → α) (x1 : (⟨3, ![64, 2048, 18]⟩ : Shape).Idx → α)
    (x2 : (⟨3, ![64, 2048, 4]⟩ : Shape).Idx → α) (v0 : (⟨3, ![64, 2048, 51]⟩ : Shape).Idx → α)
    (h : Shape.Concatenates [(⟨3, ![64, 2048, 512]⟩ : Shape), ⟨3, ![64, 2048, 18]⟩, ⟨3, ![64, 2048, 4]⟩, ⟨3, ![64, 2048, 51]⟩] ⟨3, ![64, 2048, 585]⟩ 2)
    (h' : Shape.Concatenates [(⟨3, ![64, 2048, 18]⟩ : Shape), ⟨3, ![64, 2048, 4]⟩, ⟨3, ![64, 2048, 51]⟩] ⟨3, ![64, 2048, 73]⟩ 2)
    (b : Fin 64) (n : Fin 2048) (k : Fin 73) :
    concatenate ⟨3, ![64, 2048, 585]⟩ 2 [⟨⟨3, ![64, 2048, 512]⟩, x0⟩, ⟨⟨3, ![64, 2048, 18]⟩, x1⟩, ⟨⟨3, ![64, 2048, 4]⟩, x2⟩, ⟨⟨3, ![64, 2048, 51]⟩, v0⟩] h
        (ix3 b n (Fin.natAdd 512 k))
      = concatenate ⟨3, ![64, 2048, 73]⟩ 2 [⟨⟨3, ![64, 2048, 18]⟩, x1⟩, ⟨⟨3, ![64, 2048, 4]⟩, x2⟩, ⟨⟨3, ![64, 2048, 51]⟩, v0⟩] h' (ix3 b n k) := by
  have hk : k.val < 73 := k.isLt
  by_cases h1 : k.val < 18
  · exact (concatenate_apply_piece 2 [⟨⟨3, ![64, 2048, 512]⟩, x0⟩, ⟨⟨3, ![64, 2048, 18]⟩, x1⟩, ⟨⟨3, ![64, 2048, 4]⟩, x2⟩, ⟨⟨3, ![64, 2048, 51]⟩, v0⟩] h (ix3 b n (Fin.natAdd 512 k)) 1 (by simp) _ x1 rfl rfl 512 rfl (ix3 b n ⟨k.val, h1⟩) (off_axis (p := 18) (q := 585) b n ⟨k.val, h1⟩ (Fin.natAdd 512 k) rfl) rfl).trans
      (concatenate_apply_piece 2 [⟨⟨3, ![64, 2048, 18]⟩, x1⟩, ⟨⟨3, ![64, 2048, 4]⟩, x2⟩, ⟨⟨3, ![64, 2048, 51]⟩, v0⟩] h' (ix3 b n k) 0 (by simp) _ x1 rfl rfl 0 rfl (ix3 b n ⟨k.val, h1⟩) (off_axis (p := 18) (q := 73) b n ⟨k.val, h1⟩ k rfl) (Nat.zero_add _)).symm
  · by_cases h2 : k.val < 22
    · exact (concatenate_apply_piece 2 [⟨⟨3, ![64, 2048, 512]⟩, x0⟩, ⟨⟨3, ![64, 2048, 18]⟩, x1⟩, ⟨⟨3, ![64, 2048, 4]⟩, x2⟩, ⟨⟨3, ![64, 2048, 51]⟩, v0⟩] h (ix3 b n (Fin.natAdd 512 k)) 2 (by simp) _ x2 rfl rfl 530 rfl (ix3 b n ⟨k.val - 18, by omega⟩) (off_axis (p := 4) (q := 585) b n ⟨k.val - 18, by omega⟩ (Fin.natAdd 512 k) rfl)
          (by show 530 + (k.val - 18) = 512 + k.val; omega)).trans
        (concatenate_apply_piece 2 [⟨⟨3, ![64, 2048, 18]⟩, x1⟩, ⟨⟨3, ![64, 2048, 4]⟩, x2⟩, ⟨⟨3, ![64, 2048, 51]⟩, v0⟩] h' (ix3 b n k) 1 (by simp) _ x2 rfl rfl 18 rfl (ix3 b n ⟨k.val - 18, by omega⟩) (off_axis (p := 4) (q := 73) b n ⟨k.val - 18, by omega⟩ k rfl)
          (by show 18 + (k.val - 18) = k.val; omega)).symm
    · exact (concatenate_apply_piece 2 [⟨⟨3, ![64, 2048, 512]⟩, x0⟩, ⟨⟨3, ![64, 2048, 18]⟩, x1⟩, ⟨⟨3, ![64, 2048, 4]⟩, x2⟩, ⟨⟨3, ![64, 2048, 51]⟩, v0⟩] h (ix3 b n (Fin.natAdd 512 k)) 3 (by simp) _ v0 rfl rfl 534 rfl (ix3 b n ⟨k.val - 22, by omega⟩) (off_axis (p := 51) (q := 585) b n ⟨k.val - 22, by omega⟩ (Fin.natAdd 512 k) rfl)
          (by show 534 + (k.val - 22) = 512 + k.val; omega)).trans
        (concatenate_apply_piece 2 [⟨⟨3, ![64, 2048, 18]⟩, x1⟩, ⟨⟨3, ![64, 2048, 4]⟩, x2⟩, ⟨⟨3, ![64, 2048, 51]⟩, v0⟩] h' (ix3 b n k) 2 (by simp) _ v0 rfl rfl 22 rfl (ix3 b n ⟨k.val - 22, by omega⟩) (off_axis (p := 51) (q := 73) b n ⟨k.val - 22, by omega⟩ k rfl)
          (by show 22 + (k.val - 22) = k.val; omega)).symm

end Cert.Tokens

end
-- ==== Proof.RefTokens.lean ====
/-
  The reference computes the token function.

  Its run's result is, entry by entry, the select on the mask bit of (b, n) between the sum over the 585 joined
  coordinates of joined (b, n, k) · W (j, k) plus bias j, and zero. Cutting the sum at 512 and reading the joined array in
  each part gives the specification, with the short join of the three small arrays as the small features.
-/
import proofs.«162939_j11089605558541_2_alg».proof.Proof.Gen.ReferenceIdeal.Read
import proofs.«162939_j11089605558541_2_alg».proof.Proof.Tokens
import proofs.«162939_j11089605558541_2_alg».proof.Proof.Joined

noncomputable section

open scoped BigOperators

namespace Cert.ReferenceIdeal.RefValue

open Cert.ReferenceIdeal Cert.ReferenceIdeal.Gen Cert.ReferenceIdeal.Read Cert.Tokens
open Idealize.ShloMosaic Idealize.ShloMosaic.ValueIdx

theorem ref_eq_tokens (x0 : (⟨S64x2048x512, .f32⟩ : BufTy).Contents (Elt Ideal)) (x1 : (⟨S64x2048x18, .f32⟩ : BufTy).Contents (Elt Ideal))
    (x2 : (⟨S64x2048x4, .f32⟩ : BufTy).Contents (Elt Ideal)) (x3 : (⟨S64x2048x17x3, .f32⟩ : BufTy).Contents (Elt Ideal))
    (x4 : (⟨S64x2048, .i1⟩ : BufTy).Contents (Elt Ideal)) (x5 : (⟨S1024x585, .f32⟩ : BufTy).Contents (Elt Ideal))
    (x6 : (⟨S1024, .f32⟩ : BufTy).Contents (Elt Ideal))
    (h' : Shape.Concatenates [(⟨3, ![64, 2048, 18]⟩ : Shape), ⟨3, ![64, 2048, 4]⟩, ⟨3, ![64, 2048, 51]⟩] ⟨3, ![64, 2048, 73]⟩ 2) :
    val_main_v7 (F := Ideal) x0 x1 x2 x3 x4 x5 x6
      = tokens x0 (concatenate ⟨3, ![64, 2048, 73]⟩ 2 [⟨⟨3, ![64, 2048, 18]⟩, x1⟩, ⟨⟨3, ![64, 2048, 4]⟩, x2⟩,
          ⟨⟨3, ![64, 2048, 51]⟩, shapeCast _ x3 shapeCasts_S64x2048x17x3_S64x2048x51⟩] h') x4 x5 x6 := by
  funext i
  obtain ⟨b, n, j, rfl⟩ : ∃ (b : Fin 64) (n : Fin 2048) (j : Fin 1024), i = ix3 b n j := ⟨i 0, i 1, i 2, eq_ix3 i⟩
  have e4 : idx_main_v6 (idx_main_call0_v0 (ix3 b n j)) = ix2 b n :=
    funext fun a => Fin.ext (by match a with | ⟨0, _⟩ => rfl | ⟨1, _⟩ => rfl)
  have e6 : idx_main_v3 (idx_main_v4 (ix3 b n j)) = ix1 j := funext fun a => Fin.ext (by match a with | ⟨0, _⟩ => rfl)
  have el : ∀ k : Fin 585, lidx_main_v2 (ix3 b n j) k = ix3 b n k := fun k =>
    funext fun a => Fin.ext (by match a with | ⟨0, _⟩ => rfl | ⟨1, _⟩ => rfl | ⟨2, _⟩ => rfl)
  have er : ∀ k : Fin 585, ridx_main_v2 (ix3 b n j) k = ix2 j k := fun k =>
    funext fun a => Fin.ext (by match a with | ⟨0, _⟩ => rfl | ⟨1, _⟩ => rfl)
  have hL : ∀ k : Fin 512, val_main_v1 (F := Ideal) x0 x1 x2 x3 (ix3 b n (Fin.castAdd 73 k)) = x0 (ix3 b n k) := fun k => by
    unfold val_main_v1 val_main_v0
    exact joined_left x0 x1 x2 _ _ b n k
  have hR : ∀ k : Fin 73, val_main_v1 (F := Ideal) x0 x1 x2 x3 (ix3 b n (Fin.natAdd 512 k))
      = concatenate ⟨3, ![64, 2048, 73]⟩ 2 [⟨⟨3, ![64, 2048, 18]⟩, x1⟩, ⟨⟨3, ![64, 2048, 4]⟩, x2⟩,
          ⟨⟨3, ![64, 2048, 51]⟩, shapeCast _ x3 shapeCasts_S64x2048x17x3_S64x2048x51⟩] h' (ix3 b n k) := fun k => by
    unfold val_main_v1 val_main_v0
    exact joined_right x0 x1 x2 _ _ h' b n k
  have hs : ∑ k : Fin 585, val_main_v1 (F := Ideal) x0 x1 x2 x3 (lidx_main_v2 (ix3 b n j) k) * x5 (ridx_main_v2 (ix3 b n j) k)
      = ∑ k : Fin 512, x0 (ix3 b n k) * x5 (ix2 j (Fin.castAdd 73 k))
        + ∑ k : Fin 73, concatenate ⟨3, ![64, 2048, 73]⟩ 2 [⟨⟨3, ![64, 2048, 18]⟩, x1⟩, ⟨⟨3, ![64, 2048, 4]⟩, x2⟩,
            ⟨⟨3, ![64, 2048, 51]⟩, shapeCast _ x3 shapeCasts_S64x2048x17x3_S64x2048x51⟩] h' (ix3 b n k) * x5 (ix2 j (Fin.natAdd 512 k)) := by
    rw [sum_join]
    refine congrArg₂ (· + ·) (Finset.sum_congr rfl fun k _ => ?_) (Finset.sum_congr rfl fun k _ => ?_)
    · exact congrArg₂ (· * ·) ((congrArg (val_main_v1 (F := Ideal) x0 x1 x2 x3) (el (Fin.castAdd 73 k))).trans (hL k))
        (congrArg x5 (er (Fin.castAdd 73 k)))
    · exact congrArg₂ (· * ·) ((congrArg (val_main_v1 (F := Ideal) x0 x1 x2 x3) (el (Fin.natAdd 512 k))).trans (hR k))
        (congrArg x5 (er (Fin.natAdd 512 k)))
  rw [val_main_v7_apply, val_main_call0_v0_apply, val_main_v6_apply, val_main_v5_apply, val_main_v2_apply, val_main_v4_apply,
    val_main_v3_apply, val_main_call0_v1_apply, val_main_cst_apply, e4, e6, hs, tokens_apply]
  unfold token
  show Scalar.select _ (_ + _) (Ideal.ofBits .f32 0x00000000#32) = _
  rw [Ideal.ofBits_zero_f32]

end Cert.ReferenceIdeal.RefValue

end
-- ==== Proof.lean ====
/-
  The masked linear projection: the Pallas kernel's program against its jnp reference, equal at the ideal values.

  Reference: join the embeddings (512 wide) and the three small feature arrays (18, 4 and 51 wide) along the feature
  axis, multiply each row of 585 entries by the 1024 × 585 weight matrix, add the bias, and keep the result where the
  mask bit of the row is set, zero elsewhere. Kernel: the same sum cut at coordinate 512 into two matrix products (the
  second over the small features padded with zeros from 73 to 128 coordinates), the bias added, the result multiplied
  by the mask bit as a number; one image per grid point. At the ideal values rounding to the narrow float format is the
  identity, the zero padding contributes 0 · 0 = 0 to the second sum, a sum of extended reals may be cut anywhere, and
  multiplying by the bit read as 1 or 0 is the select; so both results are one function of the arguments (`Tokens.tokens`)
  and the precondition (finite inputs) is not used.

  The three frames: the two kernel programs run by the library's frame run over the body's triple (one statement for
  any float instance, cited at the word-level and at the ideal instance); the reference has no kernel, and its frame is
  its run with the result dropped. The idealization rewrote nothing, so `preserves` is `True`.
-/
import proofs.«162939_j11089605558541_2_alg».proof.Defs
import proofs.«162939_j11089605558541_2_alg».proof.Proof.Gen.Kernel
import proofs.«162939_j11089605558541_2_alg».proof.Proof.Gen.KernelIdeal
import proofs.«162939_j11089605558541_2_alg».proof.Proof.Gen.ReferenceIdeal
import proofs.«162939_j11089605558541_2_alg».proof.Proof.Gen.Pre_finite_inputs
import proofs.«162939_j11089605558541_2_alg».proof.Proof.Gen.ReferenceIdeal.Run
import proofs.«162939_j11089605558541_2_alg».proof.Proof.Gen.ReferenceIdeal.Read
import proofs.«162939_j11089605558541_2_alg».proof.Proof.BitsFrame
import proofs.«162939_j11089605558541_2_alg».proof.Proof.IdealFrame
import proofs.«162939_j11089605558541_2_alg».proof.Proof.IdealValue
import proofs.«162939_j11089605558541_2_alg».proof.Proof.RefTokens

noncomputable section

namespace Cert.Proof

open Idealize.ShloMosaic Idealize.ShloMosaic.TcCoe Idealize.SL.Sem

theorem frame_kernel : Cert.frame_Kernel := fun m ρ _ => Cert.Kernel.Frame.frame m ρ

theorem frame_kernelIdeal : Cert.frame_KernelIdeal := fun m ρ _ => Cert.KernelIdeal.Frame.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the token function of the arguments in their result array: the kernel's by the frame run
    read block by block, the reference's by its run read entry by entry; the arguments agree, so the results do. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq,
    Cert.ReferenceIdeal.RefValue.ref_eq_tokens _ _ _ _ _ _ _ Cert.KernelIdeal.Gen.concatenates_S64x2048x18_S64x2048x4_S64x2048x51_S64x2048x73_d2,
    (hagree c).1, (hagree c).2.1, (hagree c).2.2.1, (hagree c).2.2.2.1, (hagree c).2.2.2.2.1, (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
